-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S2048x4096 : Shape := ⟨2, ![2048, 4096]⟩
abbrev S4096 : Shape := ⟨1, ![4096]⟩
abbrev S4096x2048 : Shape := ⟨2, ![4096, 2048]⟩
abbrev S2048 : Shape := ⟨1, ![2048]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S4096 .f32) (main_arg5 : FVec F S4096x2048 .f32) (main_arg6 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S8x2048x64 .f32) (main_arg1 : FVec F S8x2048x64 .f32) (main_arg2 : FVec F S8x2048x64 .f32) (main_arg3 : FVec F S2048x4096 .f32) (main_arg4 : FVec F S4096 .f32) (main_arg5 : FVec F S4096x2048 .f32) (main_arg6 : FVec F S2048 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x2048x64 .f32 := Host.absf main_arg2
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  let main_c_3 : IVec S_ 1 := constantI S_ 1 1#1
  let main_v12 : IVec S_ 1 := (fun x v => Host.reduce IntOp.andi x v reducesTo_S8x2048x64_S_d0_1_2 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_v13 main_v16
-- ==== Kernel.lean ====
abbrev S8x2048x64 : Shape := ⟨3, ![8, 2048, 64]⟩
abbrev S2048x4096 : Shape := ⟨2, ![2048, 4096]⟩
abbrev S4096 : Shape := ⟨1, ![4096]⟩
abbrev S4096x2048 : Shape := ⟨2, ![4096, 2048]⟩
abbrev S2048 : Shape := ⟨1, ![2048]⟩
abbrev S1x4096 : Shape := ⟨2, ![1, 4096]⟩
abbrev S1x2048 : Shape := ⟨2, ![1, 2048]⟩
abbrev S1x128x64 : Shape := ⟨3, ![1, 128, 64]⟩
abbrev S1x2048x64 : Shape := ⟨3, ![1, 2048, 64]⟩
abbrev S128x64 : Shape := ⟨2, ![128, 64]⟩
abbrev S2048x64 : Shape := ⟨2, ![2048, 64]⟩
abbrev S128x2048 : Shape := ⟨2, ![128, 2048]⟩
abbrev S128x4096 : Shape := ⟨2, ![128, 4096]⟩
abbrev S128 : Shape := ⟨1, ![128]⟩
abbrev S128x1 : Shape := ⟨2, ![128, 1]⟩

abbrev nBuf : Space → Nat
  | .hbm => 15
  | .vmem => 10
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S2048x4096, .f32⟩
  | .hbm, ⟨4, _⟩ => ⟨S4096, .f32⟩
  | .hbm, ⟨5, _⟩ => ⟨S4096x2048, .f32⟩
  | .hbm, ⟨6, _⟩ => ⟨S2048, .f32⟩
  | .hbm, ⟨7, _⟩ => ⟨S8x2048x64, .bf16⟩
  | .hbm, ⟨8, _⟩ => ⟨S8x2048x64, .bf16⟩
  | .hbm, ⟨9, _⟩ => ⟨S8x2048x64, .bf16⟩
  | .hbm, ⟨10, _⟩ => ⟨S2048x4096, .bf16⟩
  | .hbm, ⟨11, _⟩ => ⟨S4096x2048, .bf16⟩
  | .hbm, ⟨12, _⟩ => ⟨S1x4096, .f32⟩
  | .hbm, ⟨13, _⟩ => ⟨S1x2048, .f32⟩
  | .hbm, ⟨14, _⟩ => ⟨S8x2048x64, .f32⟩
  | .local _ .vmem, ⟨0, _⟩ => ⟨S1x128x64, .bf16⟩
  | .local _ .vmem, ⟨1, _⟩ => ⟨S1x128x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S2048x4096, .bf16⟩
  | .local _ .vmem, ⟨5, _⟩ => ⟨S1x4096, .f32⟩
  | .local _ .vmem, ⟨6, _⟩ => ⟨S4096x2048, .bf16⟩
  | .local _ .vmem, ⟨7, _⟩ => ⟨S1x2048, .f32⟩
  | .local _ .vmem, ⟨8, _⟩ => ⟨S1x128x64, .f32⟩
  | .local _ .vmem, ⟨9, _⟩ => ⟨S1x128x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S4096_S1x4096 : S4096.ShapeCasts S1x4096
  shapeCasts_S2048_S1x2048 : S2048.ShapeCasts S1x2048
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  reduces_S128x2048_S128 : S128x2048.Reduces [1] S128
  shapeCasts_S128_S128x1 : S128.ShapeCasts S128x1
  broadcasts_S128x1_S128x2048 : S128x1.Broadcasts S128x2048
  shapeCasts_S128x64_S1x128x64 : S128x64.ShapeCasts S1x128x64
  dot_S128x64_S2048x64_S128x2048_1_1_0_0_n_n_wf : DotDims.WF S128x64 S2048x64 S128x2048 [1] [1] [0] [0] [] []
  dot_S128x2048_S2048x4096_S128x4096_1_0_0_1_n_n_wf : DotDims.WF S128x2048 S2048x4096 S128x4096 [1] [0] [0] [1] [] []
  dot_S128x4096_S4096x2048_S128x2048_1_0_0_1_n_n_wf : DotDims.WF S128x4096 S4096x2048 S128x2048 [1] [0] [0] [1] [] []
  dot_S128x2048_S2048x64_S128x64_1_0_0_1_n_n_wf : DotDims.WF S128x2048 S2048x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S8x2048x64.size a
  hwx0_0 : ∀ i : grid0.Coords, EltTy.bits .bf16 = 32 ∨ (Rect.block (s := S8x2048x64) S1x128x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .bf16 = 32 ∨ (Rect.block (s := S8x2048x64) S1x2048x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .bf16 = 32 ∨ (Rect.block (s := S8x2048x64) S1x2048x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x2048.size a ≤ S4096x2048.size a
  hwx0_5 : ∀ i : grid0.Coords, EltTy.bits .bf16 = 32 ∨ (Rect.block (s := S4096x2048) S4096x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x64.size a ≤ S8x2048x64.size a
  hwx0_7 : ∀ i : grid0.Coords, EltTy.bits .f32 = 32 ∨ (Rect.block (s := S8x2048x64) S1x128x64.size (cc0_transform_7 i) (hinb0_7 i)).WholeWords (EltTy.packing .f32)

variable [Facts₀]

def dot_S128x64_S2048x64_S128x2048_1_1_0_0_n_n : DotDims S128x64 S2048x64 S128x2048 where
  lhsContracting := [1]
  rhsContracting := [1]
  lhsNonContracting := [0]
  rhsNonContracting := [0]
  lhsBatch := []
  rhsBatch := []
  wf := dot_S128x64_S2048x64_S128x2048_1_1_0_0_n_n_wf
def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf
def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf
def dot_S128x2048_S2048x64_S128x64_1_0_0_1_n_n : DotDims S128x2048 S2048x64 S128x64 where
  lhsContracting := [1]
  rhsContracting := [0]
  lhsNonContracting := [0]
  rhsNonContracting := [1]
  lhsBatch := []
  rhsBatch := []
  wf := dot_S128x2048_S2048x64_S128x64_1_0_0_1_n_n_wf

abbrev win0_0 : Pipeline.Window sig grid0 :=
  Pipeline.Window.ofSpec (Memref.whole main_v0) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S2048x4096 : Shape := ⟨2, ![2048, 4096]⟩
abbrev S4096 : Shape := ⟨1, ![4096]⟩
abbrev S4096x2048 : Shape := ⟨2, ![4096, 2048]⟩
abbrev S2048 : Shape := ⟨1, ![2048]⟩
abbrev S8x2048x2048 : Shape := ⟨3, ![8, 2048, 2048]⟩
abbrev S_ : Shape := ⟨0, ![]⟩
abbrev S8x2048x4096 : Shape := ⟨3, ![8, 2048, 4096]⟩
abbrev S1x1x4096 : Shape := ⟨3, ![1, 1, 4096]⟩
abbrev S1x1x2048 : Shape := ⟨3, ![1, 1, 2048]⟩
abbrev S8x2048 : Shape := ⟨2, ![8, 2048]⟩
abbrev S8x2048x1 : Shape := ⟨3, ![8, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S2048x4096, .f32⟩
  | .hbm, ⟨4, _⟩ => ⟨S4096, .f32⟩
  | .hbm, ⟨5, _⟩ => ⟨S4096x2048, .f32⟩
  | .hbm, ⟨6, _⟩ => ⟨S2048, .f32⟩
  | .hbm, ⟨7, _⟩ => ⟨S8x2048x2048, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x4096, .f32⟩
  | .hbm, ⟨13, _⟩ => ⟨S1x1x4096, .f32⟩
  | .hbm, ⟨14, _⟩ => ⟨S8x2048x4096, .f32⟩
  | .hbm, ⟨15, _⟩ => ⟨S8x2048x4096, .f32⟩
  | .hbm, ⟨16, _⟩ => ⟨S_, .f32⟩
  | .hbm, ⟨17, _⟩ => ⟨S8x2048x4096, .f32⟩
  | .hbm, ⟨18, _⟩ => ⟨S8x2048x4096, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x64_S8x2048x64_S8x2048x2048_2_2_1_1_0_0_wf : DotDims.WF S8x2048x64 S8x2048x64 S8x2048x2048 [2] [2] [1] [1] [0] [0]
  dot_S8x2048x2048_S2048x4096_S8x2048x4096_2_0_01_1_n_n_wf : DotDims.WF S8x2048x2048 S2048x4096 S8x2048x4096 [2] [0] [0, 1] [1] [] []
  dot_S8x2048x4096_S4096x2048_S8x2048x2048_2_0_01_1_n_n_wf : DotDims.WF S8x2048x4096 S4096x2048 S8x2048x2048 [2] [0] [0, 1] [1] [] []
  dot_S8x2048x2048_S8x2048x64_S8x2048x64_2_1_1_2_0_0_wf : DotDims.WF S8x2048x2048 S8x2048x64 S8x2048x64 [2] [1] [1] [2] [0] [0]

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S2048x4096_S8x2048x4096_2_0_01_1_n_n : DotDims S8x2048x2048 S2048x4096 S8x2048x4096 where
  lhsContracting := [2]
  rhsContracting := [0]
  lhsNonContracting := [0, 1]
  rhsNonContracting := [1]
  lhsBatch := []
  rhsBatch := []
  wf := dot_S8x2048x2048_S2048x4096_S8x2048x4096_2_0_01_1_n_n_wf
def dot_S8x2048x4096_S4096x2048_S8x2048x2048_2_0_01_1_n_n : DotDims S8x2048x4096 S4096x2048 S8x2048x2048 where
  lhsContracting := [2]
  rhsContracting := [0]
  lhsNonContracting := [0, 1]
  rhsNonContracting := [1]
  lhsBatch := []
  rhsBatch := []
  wf := dot_S8x2048x4096_S4096x2048_S8x2048x2048_2_0_01_1_n_n_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.AttnRows.lean ====
/-
  One row of attention whose scores pass through a two-layer perceptron, on the extended reals.

  For one query row q (length D), the keys K and values V of its batch (S rows of length D each), and the
  perceptron's weights W1 (S × H), b1 (H), W2 (H × S), b2 (S):
      scores   s k = (Σ d, q d · K k d) · c                      (c the scale, 1/8 here)
      hidden   h j = max ((Σ k, s k · W1 k j) + b1 j) z          (z the rectifier's threshold, 0 here)
      adjusted a k = (Σ j, h j · W2 j k) + b2 k
      weights  p k = exp (a k − M) / Σ k', exp (a k' − M),       M the largest a k, folded from the floor lo
      result   o d = Σ k, p k · V k d.
  Every step reads one row of the previous step, so a block of query rows and the whole array of query rows give the
  same rows. The functions are plain functions of Fin-indexed families; nothing here mentions a program.
-/
import Idealize.ShloMosaic.PureOps.Ideal
import Idealize.ShloMosaic.Lib.ValueIdx
import proofs.«176776_j71605694759560_2_alg».proof.Proof.LibDenseRows

noncomputable section

namespace Cert.AttnRows

open Idealize.ShloMosaic Idealize.ShloMosaic.ValueIdx Cert.DenseRows

/-- The scaled scores of one query row against every key row. -/
def scoreRow {D S : ℕ} (c : EReal) (q : Fin D → EReal) (K : Fin S → Fin D → EReal) : Fin S → EReal :=
  fun k => (∑ d : Fin D, q d * K k d) * c

/-- The largest entry of a row, folded from the floor value `lo`. -/
def rowMax {N : ℕ} (lo : EReal) (a : Fin N → EReal) : EReal := (Finset.univ : Finset (Fin N)).fold max lo a

/-- The softmax weights of a row: each entry's exponential after the row's maximum is taken off, over their sum. -/
def softRow {N : ℕ} (lo : EReal) (a : Fin N → EReal) : Fin N → EReal :=
  fun k => Ideal.div (Ideal.exp (a k - rowMax lo a)) (∑ j : Fin N, Ideal.exp (a j - rowMax lo a))

/-- The weighted mix of the value rows. -/
def mixRow {S D : ℕ} (p : Fin S → EReal) (V : Fin S → Fin D → EReal) : Fin D → EReal :=
  fun d => ∑ k : Fin S, p k * V k d

/-- The adjusted scores of one query row: scores, then the two dense layers with the rectifier between them. -/
def adjRow {D S H : ℕ} (c z : EReal) (q : Fin D → EReal) (K : Fin S → Fin D → EReal)
    (W1 : Fin S → Fin H → EReal) (b1 : Fin H → EReal) (W2 : Fin H → Fin S → EReal) (b2 : Fin S → EReal) : Fin S → EReal :=
  affine (floorAt z (affine (scoreRow c q K) W1 b1)) W2 b2

/-- One output row of the attention. -/
def attnRow {D S H : ℕ} (c z lo : EReal) (q : Fin D → EReal) (K V : Fin S → Fin D → EReal)
    (W1 : Fin S → Fin H → EReal) (b1 : Fin H → EReal) (W2 : Fin H → Fin S → EReal) (b2 : Fin S → EReal) : Fin D → EReal :=
  mixRow (softRow lo (adjRow c z q K W1 b1 W2 b2)) V

/-- The scale the kernel multiplies the scores by (the pattern of 1/8). -/
abbrev cK : EReal := Ideal.ofBits .f32 0x3E000000#32
/-- The rectifier's threshold (the pattern of 0). -/
abbrev zK : EReal := Ideal.ofBits .f32 0x00000000#32
/-- The floor the row maximum is folded from (the pattern of −∞). -/
abbrev loK : EReal := Ideal.ofBits .f32 0xFF800000#32

/-- The whole result array as one function of the seven argument arrays, index by index: entry (b, q, d) is output
    coordinate d of the attention row of query row (b, q) against batch b's keys and values. -/
def G (Q K V : (⟨3, ![8, 2048, 64]⟩ : Shape).Idx → EReal) (W1 : (⟨2, ![2048, 4096]⟩ : Shape).Idx → EReal)
    (b1 : (⟨1, ![4096]⟩ : Shape).Idx → EReal) (W2 : (⟨2, ![4096, 2048]⟩ : Shape).Idx → EReal)
    (b2 : (⟨1, ![2048]⟩ : Shape).Idx → EReal) : (⟨3, ![8, 2048, 64]⟩ : Shape).Idx → EReal :=
  fun i => attnRow cK zK loK (fun e => Q (ix3 (i 0) (i 1) e)) (fun k e => K (ix3 (i 0) k e)) (fun k e => V (ix3 (i 0) k e))
    (mat W1) (vec b1) (mat W2) (vec b2) (i 2)

end Cert.AttnRows

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«176776_j71605694759560_2_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.KernelAdj.lean ====
/-
  The adjusted scores of a block of query rows, row by row, on the extended reals.

  The kernel body takes a block of 128 query rows (length 64 each), the 2048 key rows of the batch and the weights
  of a two-layer perceptron, and computes in turn: the score block q · kᵀ (both operands contracted on their last
  axis) times the scale 1/8; the first dense layer (scores · W1 + b1, the bias held as a one-row matrix spread over
  the rows); the rectifier max(·, 0); the second dense layer (· W2 + b2). The result is the block of adjusted
  scores, whose exponentials (after the row maximum is taken off) are the softmax numerators.

  This module names that block (adjBlock), shows that the softmax numerator the body computes is the exponential of
  the block minus its row maxima spread over the lanes (pay3_eq, by unfolding), and reads the block one row at a
  time: row r is the function adjRow of query row r, the keys, and the weights (adjBlock_row). The steps are
    * the contraction sum of a product with the right operand contracted on its last axis, re-indexed by the
      contracted coordinate: the left operand is read at (r, e), the right one at (n, e)   (transposed_contr_sum);
    * a row of the scaled score block, with the leading unit axis of both operands dropped   (row_scores);
    * the two dense layers and the rectifier, each a function of one row of its input.
  The changes of float format between the layers are the identity on the extended reals, and the shape casts to the
  same shape leave their operand as it was.
-/
import proofs.«176776_j71605694759560_2_alg».proof.Proof.Gen.KernelIdeal.Skeleton
import proofs.«176776_j71605694759560_2_alg».proof.Proof.AttnRows
import proofs.«176776_j71605694759560_2_alg».proof.Proof.LibBlockRows
import Idealize.ShloMosaic.Lib.ValueLayout
import Idealize.ShloMosaic.Lib.ValueIdx
import Idealize.ShloMosaic.Lib.Pipeline.Value
import Idealize.ShloMosaic.PureOps.Ideal.Laws

noncomputable section

namespace Cert.KernelAdj

open Idealize.ShloMosaic Idealize.ShloMosaic.ValueIdx Cert.KernelIdeal Cert.KernelIdeal.Gen Cert.DenseRows Cert.AttnRows

/-! ## The contraction with the right operand contracted on its last axis -/

/-- The contraction sum of the dimension numbers "contract the last axis of both operands" at result index (r, n)
    runs over the contracted coordinate e: the left operand is read at (r, e), the right one at (n, e). -/
theorem transposed_contr_sum {M K N : ℕ} (f : (⟨2, ![M, K]⟩ : Shape).Idx → EReal) (g : (⟨2, ![N, K]⟩ : Shape).Idx → EReal)
    (r : Fin M) (n : Fin N) :
    ∑ q : (DotDims.transposedRhs M K N).contr.Idx,
        f ((DotDims.transposedRhs M K N).lhsIdx (ix2 r n) q) * g ((DotDims.transposedRhs M K N).rhsIdx (ix2 r n) q)
      = ∑ e : Fin K, f (ix2 r e) * g (ix2 n e) := by
  rw [← Equiv.sum_comp (contrEquiv1 (DotDims.transposedRhs M K N) K rfl rfl).symm]
  refine Finset.sum_congr rfl fun e _ => ?_
  have he := contrEquiv1_symm_val (DotDims.transposedRhs M K N) K rfl rfl e
  have el : (DotDims.transposedRhs M K N).lhsIdx (ix2 r n) ((contrEquiv1 (DotDims.transposedRhs M K N) K rfl rfl).symm e) = ix2 r e :=
    funext fun a => Fin.ext (by
      match a with
      | ⟨0, _⟩ =>
        show ((DotDims.transposedRhs M K N).lhsIdx (ix2 r n) _ 0).val = r.val
        unfold DotDims.lhsIdx
        rw [dif_neg (show ¬(0 : Fin 2) ∈ (DotDims.transposedRhs M K N).lhsBatch from List.not_mem_nil),
          dif_pos (show (0 : Fin 2) ∈ (DotDims.transposedRhs M K N).lhsNonContracting from List.mem_singleton.mpr rfl)]
        rfl
      | ⟨1, _⟩ => exact ((DotDims.transposedRhs M K N).lhsIdx_val_of_single rfl (ix2 r n) _).trans he)
  have er : (DotDims.transposedRhs M K N).rhsIdx (ix2 r n) ((contrEquiv1 (DotDims.transposedRhs M K N) K rfl rfl).symm e) = ix2 n e :=
    funext fun a => Fin.ext (by
      match a with
      | ⟨0, _⟩ =>
        show ((DotDims.transposedRhs M K N).rhsIdx (ix2 r n) _ 0).val = n.val
        unfold DotDims.rhsIdx
        rw [dif_neg (show ¬(0 : Fin 2) ∈ (DotDims.transposedRhs M K N).rhsBatch from List.not_mem_nil),
          dif_pos (show (0 : Fin 2) ∈ (DotDims.transposedRhs M K N).rhsNonContracting from List.mem_singleton.mpr rfl)]
        rfl
      | ⟨1, _⟩ => exact ((DotDims.transposedRhs M K N).rhsIdx_val_of_single rfl (ix2 r n) _).trans he)
  rw [el, er]

/-! ## A row of the scaled scores -/

/-- Row r of the product q · kᵀ accumulated into the zero splat and scaled by a splat factor c, the operands given with
    a leading unit axis that a shape cast drops: the scaled scores of query row r against every key row. -/
theorem row_scores {R D S : ℕ} {φ₁ φ₂ : FTy} (d : DotDims ⟨2, ![R, D]⟩ ⟨2, ![S, D]⟩ ⟨2, ![R, S]⟩)
    (hd : d = DotDims.transposedRhs R D S) (prec : Option ContractPrecision)
    (q : FVec Ideal ⟨3, ![1, R, D]⟩ φ₁) (k : FVec Ideal ⟨3, ![1, S, D]⟩ φ₂)
    (hq : (⟨3, ![1, R, D]⟩ : Shape).ShapeCasts ⟨2, ![R, D]⟩) (hk : (⟨3, ![1, S, D]⟩ : Shape).ShapeCasts ⟨2, ![S, D]⟩)
    (c : Ideal .f32) (r : Fin R) :
    row (mulf (matmul d prec (shapeCast ⟨2, ![R, D]⟩ q hq) (shapeCast ⟨2, ![S, D]⟩ k hk)
            (constant (F := Ideal) ⟨2, ![R, S]⟩ .f32 0x00000000#32))
          (broadcast ⟨2, ![R, S]⟩ c)) r
      = scoreRow c (fun e : Fin D => q (ix3 (0 : Fin 1) r e)) (fun (j : Fin S) (e : Fin D) => k (ix3 (0 : Fin 1) j e)) := by
  subst hd
  funext n
  show FloatOps.matmul (DotDims.transposedRhs R D S) prec (shapeCast ⟨2, ![R, D]⟩ q hq) (shapeCast ⟨2, ![S, D]⟩ k hk)
        (constant (F := Ideal) ⟨2, ![R, S]⟩ .f32 0x00000000#32) (ix2 r n) * c = _
  rw [Ideal.matmul_constant_zero_apply, transposed_contr_sum]
  refine congrArg (· * c) (Finset.sum_congr rfl fun e _ => ?_)
  rw [shapeCast_1ab_ab_apply, shapeCast_1ab_ab_apply]

/-! ## The block of adjusted scores -/

/-- The block of adjusted scores the body computes from the loaded blocks: the scaled scores, the first dense layer,
    the rectifier, the second dense layer. -/
noncomputable def adjBlock (v0 : Vec Ideal S1x128x64 .bf16) (v2 : Vec Ideal S1x2048x64 .bf16) (v10 : Vec Ideal S2048x4096 .bf16)
    (v13 : Vec Ideal S1x4096 .f32) (v20 : Vec Ideal S4096x2048 .bf16) (v23 : Vec Ideal S1x2048 .f32) : FVec Ideal S128x2048 .f32 :=
  have v1 : FVec Ideal S128x64 .bf16 := shapeCast S128x64 v0 shapeCasts_S1x128x64_S128x64
  have v3 : FVec Ideal S2048x64 .bf16 := shapeCast S2048x64 v2 shapeCasts_S1x2048x64_S2048x64
  have cst : FVec Ideal S128x2048 .f32 := constant S128x2048 .f32 0x00000000#32
  have v6 : FVec Ideal S128x2048 .f32 := matmul dot_S128x64_S2048x64_S128x2048_1_1_0_0_n_n none v1 v3 cst
  have cst_8 : Ideal .f32 := Scalar.ofBits .f32 0x3E000000#32
  have v7 : FVec Ideal S128x2048 .f32 := broadcast S128x2048 cst_8
  have v8 : FVec Ideal S128x2048 .f32 := mulf v6 v7
  have v9 : FVec Ideal S128x2048 .bf16 := truncf .bf16 v8 bitsLt_bf16_f32
  have v11 : FVec Ideal S2048x4096 .bf16 := shapeCast S2048x4096 v10 shapeCasts_S2048x4096_S2048x4096
  have cst_11 : FVec Ideal S128x4096 .f32 := constant S128x4096 .f32 0x00000000#32
  have v12 : FVec Ideal S128x4096 .f32 := matmul dot_S128x2048_S2048x4096_S128x4096_1_0_0_1_n_n none v9 v11 cst_11
  have v14 : FVec Ideal S1x4096 .f32 := shapeCast S1x4096 v13 shapeCasts_S1x4096_S1x4096
  have v15 : FVec Ideal S128x4096 .f32 := broadcastTo S128x4096 v14 broadcasts_S1x4096_S128x4096
  have v16 : FVec Ideal S128x4096 .f32 := addf v12 v15
  have cst_14 : Ideal .f32 := Scalar.ofBits .f32 0x00000000#32
  have v17 : FVec Ideal S128x4096 .f32 := broadcast S128x4096 cst_14
  have v18 : FVec Ideal S128x4096 .f32 := maximumf v16 v17
  have v19 : FVec Ideal S128x4096 .bf16 := truncf .bf16 v18 bitsLt_bf16_f32
  have v21 : FVec Ideal S4096x2048 .bf16 := shapeCast S4096x2048 v20 shapeCasts_S4096x2048_S4096x2048
  have cst_17 : FVec Ideal S128x2048 .f32 := constant S128x2048 .f32 0x00000000#32
  have v22 : FVec Ideal S128x2048 .f32 := matmul dot_S128x4096_S4096x2048_S128x2048_1_0_0_1_n_n none v19 v21 cst_17
  have v24 : FVec Ideal S1x2048 .f32 := shapeCast S1x2048 v23 shapeCasts_S1x2048_S1x2048
  have v25 : FVec Ideal S128x2048 .f32 := broadcastTo S128x2048 v24 broadcasts_S1x2048_S128x2048
  have v26 : FVec Ideal S128x2048 .f32 := addf v22 v25
  v26

/-- The softmax numerator the body computes is the exponential of the adjusted block minus its row maxima, each
    folded from the floor value and spread over the lanes of its row. -/
theorem pay3_eq (v0 : Vec Ideal S1x128x64 .bf16) (v2 : Vec Ideal S1x2048x64 .bf16) (v10 : Vec Ideal S2048x4096 .bf16)
    (v13 : Vec Ideal S1x4096 .f32) (v20 : Vec Ideal S4096x2048 .bf16) (v23 : Vec Ideal S1x2048 .f32) :
    k0_pay3 (F := Ideal) v0 v2 v10 v13 v20 v23
      = exp (subf (adjBlock v0 v2 v10 v13 v20 v23)
          (broadcastTo S128x2048
            (shapeCast S128x1
              (multiReduction .maximumf [1] S128 (adjBlock v0 v2 v10 v13 v20 v23) 0xFF800000#32 reduces_S128x2048_S128 (.inl rfl) rfl)
              shapeCasts_S128_S128x1)
            broadcasts_S128x1_S128x2048)) := rfl

/-- Row r of the adjusted block is the adjusted scores of query row r: the scaled scores against every key row, then
    the two dense layers with the rectifier between them. -/
theorem adjBlock_row (v0 : Vec Ideal S1x128x64 .bf16) (v2 : Vec Ideal S1x2048x64 .bf16) (v10 : Vec Ideal S2048x4096 .bf16)
    (v13 : Vec Ideal S1x4096 .f32) (v20 : Vec Ideal S4096x2048 .bf16) (v23 : Vec Ideal S1x2048 .f32) (r : Fin 128) :
    row (adjBlock v0 v2 v10 v13 v20 v23) r
      = adjRow cK zK (fun e : Fin 64 => v0 (ix3 (0 : Fin 1) r e)) (fun (k : Fin 2048) (e : Fin 64) => v2 (ix3 (0 : Fin 1) k e))
          (mat v10) (row v13 (0 : Fin 1)) (mat v20) (row v23 (0 : Fin 1)) := by
  unfold adjBlock adjRow
  refine (Cert.LibBlockRows.row_matmul_rowbias dot_S128x4096_S4096x2048_S128x2048_1_0_0_1_n_n rfl none _ _ _ _ r).trans ?_
  rw [mat_shapeCast_self, row_shapeCast_self, row_truncf, row_max_splat]
  refine congrArg (fun h => affine (floorAt zK h) (mat v20) (row v23 (0 : Fin 1))) ?_
  refine (Cert.LibBlockRows.row_matmul_rowbias dot_S128x2048_S2048x4096_S128x4096_1_0_0_1_n_n rfl none _ _ _ _ r).trans ?_
  rw [mat_shapeCast_self, row_shapeCast_self, row_truncf]
  refine congrArg (fun s => affine s (mat v10) (row v13 (0 : Fin 1))) ?_
  exact row_scores dot_S128x64_S2048x64_S128x2048_1_1_0_0_n_n rfl none v0 v2 _ _ cK r

end Cert.KernelAdj

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.KernelSoft.lean ====
/-
  The softmax and value-mix steps of the kernel body, read one entry at a time on the extended reals.

  For a block X of 128 rows and 2048 lanes:
    * the row maximum M r (the fold of max over row r from the pattern of minus infinity), put in a column and
      spread back over the lanes, is subtracted and exponentiated: entry (r, k) of the result is exp (X r k - M r);
    * the lane sum of a block E, put in a column, has at row r the value Σ k, E r k;
    * dividing a block E by a column s spread over the lanes and multiplying the quotient by a values matrix V
      (2048 rows, 64 lanes), accumulated into zeros and given a leading unit axis, has at (0, r, d) the value
      Σ k, (E r k / s r) · V k d;
    * dropping the leading unit axis of the loaded values block keeps every entry: (k, d) reads (0, k, d).
  Every statement is over arbitrary input blocks; a change of float format is the identity at the extended reals.
-/
import proofs.«176776_j71605694759560_2_alg».proof.Proof.Gen.KernelIdeal.Skeleton
import proofs.«176776_j71605694759560_2_alg».proof.Proof.AttnRows
import proofs.«176776_j71605694759560_2_alg».proof.Proof.LibBlockRows
import proofs.«176776_j71605694759560_2_alg».proof.Proof.LibLayoutRead
import Idealize.ShloMosaic.Lib.ValueLayout
import Idealize.ShloMosaic.Lib.ValueIdx
import Idealize.ShloMosaic.Lib.Pipeline.Value
import Idealize.ShloMosaic.PureOps.Ideal.Laws

noncomputable section

namespace Cert.KernelSoft

open Idealize.ShloMosaic Idealize.ShloMosaic.ValueIdx Cert.KernelIdeal Cert.KernelIdeal.Gen Cert.DenseRows Cert.AttnRows

/-- The maximum-reduction over the lanes of a matrix, at row r, is the fold of max over that row from the value the
    accumulator's pattern denotes. -/
theorem rowmax {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (r : Fin a) :
    multiReduction (F := Ideal) .maximumf [1] ⟨1, ![a]⟩ src acc h hφ hacc (ix1 r)
      = rowMax (Ideal.ofBits .f32 acc) (row src r) := by
  refine (Ideal.multiReduction_maximumf_single src acc h hφ hacc (ix1 r)).trans ?_
  have e : src ∘ h.lift (ix1 r) = row src r := funext fun k => congrArg src (funext fun ax => by
    match ax with
    | ⟨0, _⟩ => rfl
    | ⟨1, _⟩ => rfl)
  rw [e]
  rfl

/-- The row maximum as a column spread over the lanes: entry (r, k) is the maximum of row r. -/
theorem rowMaxSpread_apply (X : FVec Ideal S128x2048 .f32) (r : Fin 128) (k : Fin 2048) :
    broadcastTo S128x2048 (shapeCast S128x1 (multiReduction (F := Ideal) .maximumf [1] S128 X 0xFF800000#32 reduces_S128x2048_S128 (.inl rfl) rfl) shapeCasts_S128_S128x1) broadcasts_S128x1_S128x2048 (ix2 r k)
      = rowMax loK (row X r) :=
  (Cert.LayoutRead.bcast_col _ broadcasts_S128x1_S128x2048 r k).trans
    ((Cert.LayoutRead.cast_col _ shapeCasts_S128_S128x1 r (0 : Fin 1)).trans
      (rowmax X 0xFF800000#32 reduces_S128x2048_S128 (.inl rfl) rfl r))

/-- Entry (r, k) of exp (X - the spread row maximum) is exp (X r k - max of row r). -/
theorem expShift_apply (X : FVec Ideal S128x2048 .f32) (r : Fin 128) (k : Fin 2048) :
    exp (subf X (broadcastTo S128x2048 (shapeCast S128x1 (multiReduction (F := Ideal) .maximumf [1] S128 X 0xFF800000#32 reduces_S128x2048_S128 (.inl rfl) rfl) shapeCasts_S128_S128x1) broadcasts_S128x1_S128x2048)) (ix2 r k)
      = Ideal.exp (X (ix2 r k) - rowMax loK (row X r)) := by
  show Ideal.exp (X (ix2 r k) - broadcastTo S128x2048 _ broadcasts_S128x1_S128x2048 (ix2 r k)) = _
  rw [rowMaxSpread_apply]

/-- The lane sum put in a column: row r holds the sum of row r. -/
theorem rowSumCol_apply (E : FVec Ideal S128x2048 .f32) (r : Fin 128) :
    shapeCast S128x1 (multiReduction (F := Ideal) .add [1] S128 E 0x00000000#32 reduces_S128x2048_S128 (.inl rfl) rfl) shapeCasts_S128_S128x1 (ix2 r (0 : Fin 1)) = ∑ k : Fin 2048, E (ix2 r k) :=
  (Cert.LayoutRead.cast_col _ shapeCasts_S128_S128x1 r (0 : Fin 1)).trans
    (Cert.LayoutRead.rowsum E reduces_S128x2048_S128 r)

/-- Dropping the leading unit axis of the values block keeps every entry. -/
theorem pay2_apply (v4 : Vec Ideal S1x2048x64 .bf16) (k : Fin 2048) (d : Fin 64) : k0_pay2 v4 (ix2 k d) = v4 (ix3 (0 : Fin 1) k d) :=
  shapeCast_1ab_ab_apply v4 shapeCasts_S1x2048x64_S2048x64 k d

/-- Entry (r, n) of a plain matrix product accumulated into zeros is the sum over the contracted coordinate. -/
theorem matmul_plain_zero_apply {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) (n : Fin N) :
    matmul d prec a w (constant (F := Ideal) ⟨2, ![R, N]⟩ .f32 0x00000000#32) (ix2 r n)
      = ∑ k : Fin K, a (ix2 r k) * w (ix2 k n) := by
  subst hd
  show FloatOps.matmul (DotDims.plain R K N) prec a w (constant (F := Ideal) ⟨2, ![R, N]⟩ .f32 0x00000000#32) (ix2 r n) = _
  rw [Ideal.matmul_constant_zero_apply, plain_contr_sum]

/-- The normalise-and-mix step: entry (0, r, d) is Σ k, (E r k / s r) · V k d. -/
theorem pay1_apply (v5 : FVec Ideal S2048x64 .bf16) (v31 : FVec Ideal S128x2048 .f32) (v33 : FVec Ideal S128x1 .f32) (r : Fin 128) (d : Fin 64) :
    k0_pay1 v5 v31 v33 (ix3 (0 : Fin 1) r d) = ∑ k : Fin 2048, Ideal.div (v31 (ix2 r k)) (v33 (ix2 r (0 : Fin 1))) * v5 (ix2 k d) := by
  unfold k0_pay1
  refine (shapeCast_ab_1ab_apply _ shapeCasts_S128x64_S1x128x64 (0 : Fin 1) r d).trans ?_
  refine (matmul_plain_zero_apply dot_S128x2048_S2048x64_S128x64_1_0_0_1_n_n rfl none _ v5 r d).trans ?_
  refine Finset.sum_congr rfl fun k _ => ?_
  show Ideal.div (v31 (ix2 r k)) (broadcastTo S128x2048 v33 broadcasts_S128x1_S128x2048 (ix2 r k)) * v5 (ix2 k d) = _
  rw [Cert.LayoutRead.bcast_col]

end Cert.KernelSoft

end
-- ==== Proof.KernelRow.lean ====
/-
  One output row of the kernel body, on the extended reals.

  The body stores, for its block of 128 query rows, the mix of the value rows weighted by the softmax of the adjusted
  scores. Entry (0, r, d) of the stored block is output coordinate d of the attention row of query row r: the adjusted
  scores of row r (scores, two dense layers with the rectifier between them), their exponentials after the row maximum
  is taken off, each divided by the sum of the row's exponentials, and the weighted sum of the value rows.
-/
import proofs.«176776_j71605694759560_2_alg».proof.Proof.KernelAdj
import proofs.«176776_j71605694759560_2_alg».proof.Proof.KernelSoft

noncomputable section

namespace Cert.KernelRow

open Idealize.ShloMosaic Idealize.ShloMosaic.ValueIdx Cert.KernelIdeal Cert.KernelIdeal.Gen Cert.DenseRows Cert.AttnRows
open Cert.KernelAdj Cert.KernelSoft

/-- Entry (r, k) of the softmax numerator: the exponential of the adjusted score minus the largest of its row. -/
theorem numerator_apply (x0 : Vec Ideal S1x128x64 .bf16) (x1 : Vec Ideal S1x2048x64 .bf16) (x3 : Vec Ideal S2048x4096 .bf16)
    (x4 : Vec Ideal S1x4096 .f32) (x5 : Vec Ideal S4096x2048 .bf16) (x6 : Vec Ideal S1x2048 .f32) (r : Fin 128) (k : Fin 2048) :
    k0_pay3 (F := Ideal) x0 x1 x3 x4 x5 x6 (ix2 r k)
      = Ideal.exp (adjRow cK zK (fun e : Fin 64 => x0 (ix3 (0 : Fin 1) r e)) (fun (k : Fin 2048) (e : Fin 64) => x1 (ix3 (0 : Fin 1) k e))
            (mat x3) (row x4 (0 : Fin 1)) (mat x5) (row x6 (0 : Fin 1)) k
          - rowMax loK (adjRow cK zK (fun e : Fin 64 => x0 (ix3 (0 : Fin 1) r e)) (fun (k : Fin 2048) (e : Fin 64) => x1 (ix3 (0 : Fin 1) k e))
            (mat x3) (row x4 (0 : Fin 1)) (mat x5) (row x6 (0 : Fin 1)))) := by
  refine (congrFun (pay3_eq x0 x1 x3 x4 x5 x6) (ix2 r k)).trans ((expShift_apply _ r k).trans ?_)
  show Ideal.exp (row (adjBlock x0 x1 x3 x4 x5 x6) r k - rowMax loK (row (adjBlock x0 x1 x3 x4 x5 x6) r)) = _
  rw [adjBlock_row]

/-- Row r of the softmax denominator column: the sum of the row's numerators. -/
theorem denominator_apply (x0 : Vec Ideal S1x128x64 .bf16) (x1 : Vec Ideal S1x2048x64 .bf16) (x3 : Vec Ideal S2048x4096 .bf16)
    (x4 : Vec Ideal S1x4096 .f32) (x5 : Vec Ideal S4096x2048 .bf16) (x6 : Vec Ideal S1x2048 .f32) (r : Fin 128) :
    k0_pay4 (F := Ideal) x0 x1 x3 x4 x5 x6 (ix2 r (0 : Fin 1)) = ∑ k : Fin 2048, k0_pay3 (F := Ideal) x0 x1 x3 x4 x5 x6 (ix2 r k) := by
  unfold k0_pay4
  exact rowSumCol_apply _ r

/-- Entry (0, r, d) of the block the body stores is output coordinate d of the attention row of query row r. -/
theorem pay_row (x0 : Vec Ideal S1x128x64 .bf16) (x1 x2 : Vec Ideal S1x2048x64 .bf16) (x3 : Vec Ideal S2048x4096 .bf16)
    (x4 : Vec Ideal S1x4096 .f32) (x5 : Vec Ideal S4096x2048 .bf16) (x6 : Vec Ideal S1x2048 .f32) (r : Fin 128) (d : Fin 64) :
    k0_pay1 (k0_pay2 x2) (k0_pay3 x0 x1 x3 x4 x5 x6) (k0_pay4 x0 x1 x3 x4 x5 x6) (ix3 (0 : Fin 1) r d)
      = attnRow cK zK loK (fun e : Fin 64 => x0 (ix3 (0 : Fin 1) r e)) (fun (k : Fin 2048) (e : Fin 64) => x1 (ix3 (0 : Fin 1) k e))
          (fun (k : Fin 2048) (e : Fin 64) => x2 (ix3 (0 : Fin 1) k e)) (mat x3) (row x4 (0 : Fin 1)) (mat x5) (row x6 (0 : Fin 1)) d := by
  refine (pay1_apply _ _ _ r d).trans ?_
  rw [denominator_apply]
  unfold attnRow mixRow softRow
  refine Finset.sum_congr rfl fun k _ => ?_
  rw [pay2_apply]
  simp only [numerator_apply]

end Cert.KernelRow

end
-- ==== Proof.KernelBlocks.lean ====
/-
  From the blocks the grid points write to the whole result array.

  The grid has 8 × 16 points; point (b, qi) reads query rows qi·128 … qi·128+127 of batch b, all 2048 key rows and
  value rows of batch b, and the whole weight arrays (the biases as one-row matrices, reshaped on the host; the float
  arrays after a change of format that is the identity on the extended reals), and writes rows qi·128 … qi·128+127 of
  batch b of the result. Each block of an input array is read where the point's coordinates say (block index × block
  size + the coordinate inside the block), so what a point writes back is the block of the one function G of the
  argument arrays; the 128 output blocks tile the result array (row q of batch b belongs to point (b, q / 128)), so the
  array ends holding G.
-/
import proofs.«176776_j71605694759560_2_alg».proof.Proof.Gen.KernelIdeal.Value
import proofs.«176776_j71605694759560_2_alg».proof.Proof.KernelRow
import Idealize.ShloMosaic.Lib.StableHlo.Run
import Idealize.ShloMosaic.Lib.ValueLayout
import Idealize.ShloMosaic.Lib.Pipeline.Value

noncomputable section

namespace Cert.KernelBlocks

open Cert.KernelIdeal Cert.KernelIdeal.Gen Idealize.ShloMosaic Idealize.ShloMosaic.TcCoe Idealize.SL.Sem
open Idealize.ShloMosaic.ValueIdx Cert.DenseRows Cert.AttnRows Idealize.ShloMosaic.StableHlo
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

theorem V_v0 (c : Dev nD) : (V m c main_v0 : S8x2048x64.Idx → EReal) = m ((c : Thread nD τ).loc main_arg0) := by
  dsimp only [Gen.V, Gen.hostOps0]; after_results; rfl
theorem V_v1 (c : Dev nD) : (V m c main_v1 : S8x2048x64.Idx → EReal) = m ((c : Thread nD τ).loc main_arg1) := by
  dsimp only [Gen.V, Gen.hostOps0]; after_results; rfl
theorem V_v2 (c : Dev nD) : (V m c main_v2 : S8x2048x64.Idx → EReal) = m ((c : Thread nD τ).loc main_arg2) := by
  dsimp only [Gen.V, Gen.hostOps0]; after_results; rfl
theorem V_v3 (c : Dev nD) : (V m c main_v3 : S2048x4096.Idx → EReal) = m ((c : Thread nD τ).loc main_arg3) := by
  dsimp only [Gen.V, Gen.hostOps0]; after_results; rfl
theorem V_v4 (c : Dev nD) : (V m c main_v4 : S4096x2048.Idx → EReal) = m ((c : Thread nD τ).loc main_arg5) := by
  dsimp only [Gen.V, Gen.hostOps0]; after_results; rfl
theorem V_v5 (c : Dev nD) : (V m c main_v5 : S1x4096.Idx → EReal) = shapeCast S1x4096 (m ((c : Thread nD τ).loc main_arg4)) shapeCasts_S4096_S1x4096 := by
  dsimp only [Gen.V, Gen.hostOps0]; after_results; rfl
theorem V_v6 (c : Dev nD) : (V m c main_v6 : S1x2048.Idx → EReal) = shapeCast S1x2048 (m ((c : Thread nD τ).loc main_arg6)) shapeCasts_S2048_S1x2048 := by
  dsimp only [Gen.V, Gen.hostOps0]; after_results; rfl

theorem idx_facts : ∀ t : Fin cfg0.N,
      win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 3) = win0_7.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) ≤ 7 ∧ win0_7.index t (1 : Fin 3) ≤ 15 ∧ win0_7.index t (2 : Fin 3) = 0 :=
  (by decide +kernel : ∀ t : Fin grid0.N, _)

theorem idx_onto : ∀ (q0 : Fin 8) (q1 : Fin 16), ∃ t : Fin cfg0.N, win0_7.index t = ![q0.val, q1.val, 0] :=
  (by decide +kernel : ∀ (q0 : Fin 8) (q1 : Fin 16), ∃ t : Fin grid0.N, win0_7.index t = ![q0.val, q1.val, 0])

/-- The batch a grid point works on. -/
def bAt (t : Fin cfg0.N) : Fin 8 := ⟨win0_7.index t (0 : Fin 3), by have := (idx_facts t).2.2.2.2.2.2.2.2.2.2.2.2.2.2.2.2.2.1; omega⟩
/-- The array row that row r of a grid point's query tile is. -/
def rowAt (t : Fin cfg0.N) (r : Fin 128) : Fin 2048 := ⟨win0_7.index t (1 : Fin 3) * 128 + r.val, by
  have := (idx_facts t).2.2.2.2.2.2.2.2.2.2.2.2.2.2.2.2.2.2.1; have := r.isLt; omega⟩

theorem emb7 (t : Fin cfg0.N) (r : Fin 128) (d : Fin 64) :
    ((cfg0.win 7).blk t).view.emb (ix3 (0 : Fin 1) r d) = ix3 (bAt t) (rowAt t r) d := by
  have h2 := (idx_facts t).2.2.2.2.2.2.2.2.2.2.2.2.2.2.2.2.2.2.2
  funext a; apply Fin.ext
  match a with
  | ⟨0, _⟩ => show win0_7.index t (0 : Fin 3) * 1 + 1 * 0 = win0_7.index t (0 : Fin 3); omega
  | ⟨1, _⟩ => show win0_7.index t (1 : Fin 3) * 128 + 1 * r.val = win0_7.index t (1 : Fin 3) * 128 + r.val; omega
  | ⟨2, _⟩ => show win0_7.index t (2 : Fin 3) * 64 + 1 * d.val = d.val; omega

theorem G_apply (Q K V : (⟨3, ![8, 2048, 64]⟩ : Shape).Idx → EReal) (W1 : (⟨2, ![2048, 4096]⟩ : Shape).Idx → EReal)
    (b1 : (⟨1, ![4096]⟩ : Shape).Idx → EReal) (W2 : (⟨2, ![4096, 2048]⟩ : Shape).Idx → EReal)
    (b2 : (⟨1, ![2048]⟩ : Shape).Idx → EReal) (b : Fin 8) (q : Fin 2048) (d : Fin 64) :
    G Q K V W1 b1 W2 b2 (ix3 b q d)
      = attnRow cK zK loK (fun e => Q (ix3 b q e)) (fun k e => K (ix3 b k e)) (fun k e => V (ix3 b k e))
          (mat W1) (vec b1) (mat W2) (vec b2) d := rfl

theorem blk0 (c : Dev nD) (t : Fin cfg0.N) (r : Fin 128) (e : Fin 64) :
    iblk m c 0 t (ix3 (0 : Fin 1) r e) = m ((c : Thread nD τ).loc main_arg0) (ix3 (bAt t) (rowAt t r) e) := by
  obtain ⟨e0, e1, e2, -⟩ := idx_facts t
  show V m c main_v0 (((cfg0.win 0).blk t).view.emb (ix3 (0 : Fin 1) r e)) = _
  rw [V_v0]
  refine congrArg _ ?_
  funext a; apply Fin.ext
  match a with
  | ⟨0, _⟩ => show win0_0.index t (0 : Fin 3) * 1 + 1 * 0 = win0_7.index t (0 : Fin 3); omega
  | ⟨1, _⟩ => show win0_0.index t (1 : Fin 3) * 128 + 1 * r.val = win0_7.index t (1 : Fin 3) * 128 + r.val; omega
  | ⟨2, _⟩ => show win0_0.index t (2 : Fin 3) * 64 + 1 * e.val = e.val; omega

theorem blk1 (c : Dev nD) (t : Fin cfg0.N) (k : Fin 2048) (e : Fin 64) :
    iblk m c 1 t (ix3 (0 : Fin 1) k e) = m ((c : Thread nD τ).loc main_arg1) (ix3 (bAt t) k e) := by
  obtain ⟨-, -, -, e0, e1, e2, -⟩ := idx_facts t
  show V m c main_v1 (((cfg0.win 1).blk t).view.emb (ix3 (0 : Fin 1) k e)) = _
  rw [V_v1]
  refine congrArg _ ?_
  funext a; apply Fin.ext
  match a with
  | ⟨0, _⟩ => show win0_1.index t (0 : Fin 3) * 1 + 1 * 0 = win0_7.index t (0 : Fin 3); omega
  | ⟨1, _⟩ => show win0_1.index t (1 : Fin 3) * 2048 + 1 * k.val = k.val; omega
  | ⟨2, _⟩ => show win0_1.index t (2 : Fin 3) * 64 + 1 * e.val = e.val; omega

theorem blk2 (c : Dev nD) (t : Fin cfg0.N) (k : Fin 2048) (e : Fin 64) :
    iblk m c 2 t (ix3 (0 : Fin 1) k e) = m ((c : Thread nD τ).loc main_arg2) (ix3 (bAt t) k e) := by
  obtain ⟨-, -, -, -, -, -, e0, e1, e2, -⟩ := idx_facts t
  show V m c main_v2 (((cfg0.win 2).blk t).view.emb (ix3 (0 : Fin 1) k e)) = _
  rw [V_v2]
  refine congrArg _ ?_
  funext a; apply Fin.ext
  match a with
  | ⟨0, _⟩ => show win0_2.index t (0 : Fin 3) * 1 + 1 * 0 = win0_7.index t (0 : Fin 3); omega
  | ⟨1, _⟩ => show win0_2.index t (1 : Fin 3) * 2048 + 1 * k.val = k.val; omega
  | ⟨2, _⟩ => show win0_2.index t (2 : Fin 3) * 64 + 1 * e.val = e.val; omega

theorem blk3 (c : Dev nD) (t : Fin cfg0.N) (k : Fin 2048) (n : Fin 4096) :
    iblk m c 3 t (ix2 k n) = m ((c : Thread nD τ).loc main_arg3) (ix2 k n) := by
  obtain ⟨-, -, -, -, -, -, -, -, -, e0, e1, -⟩ := idx_facts t
  show V m c main_v3 (((cfg0.win 3).blk t).view.emb (ix2 k n)) = _
  rw [V_v3]
  refine congrArg _ ?_
  funext a; apply Fin.ext
  match a with
  | ⟨0, _⟩ => show win0_3.index t (0 : Fin 2) * 2048 + 1 * k.val = k.val; omega
  | ⟨1, _⟩ => show win0_3.index t (1 : Fin 2) * 4096 + 1 * n.val = n.val; omega

theorem blk4 (c : Dev nD) (t : Fin cfg0.N) (n : Fin 4096) :
    iblk m c 4 t (ix2 (0 : Fin 1) n) = m ((c : Thread nD τ).loc main_arg4) (ix1 n) := by
  obtain ⟨-, -, -, -, -, -, -, -, -, -, -, e0, e1, -⟩ := idx_facts t
  show V m c main_v5 (((cfg0.win 4).blk t).view.emb (ix2 (0 : Fin 1) n)) = _
  rw [V_v5]
  have he : ((cfg0.win 4).blk t).view.emb (ix2 (0 : Fin 1) n) = ix2 (0 : Fin 1) n := by
    funext a; apply Fin.ext
    match a with
    | ⟨0, _⟩ => show win0_4.index t (0 : Fin 2) * 1 + 1 * 0 = 0; omega
    | ⟨1, _⟩ => show win0_4.index t (1 : Fin 2) * 4096 + 1 * n.val = n.val; omega
  rw [he]
  exact shapeCast_a_1a_apply _ _ (0 : Fin 1) n

theorem blk5 (c : Dev nD) (t : Fin cfg0.N) (k : Fin 4096) (n : Fin 2048) :
    iblk m c 5 t (ix2 k n) = m ((c : Thread nD τ).loc main_arg5) (ix2 k n) := by
  obtain ⟨-, -, -, -, -, -, -, -, -, -, -, -, -, e0, e1, -⟩ := idx_facts t
  show V m c main_v4 (((cfg0.win 5).blk t).view.emb (ix2 k n)) = _
  rw [V_v4]
  refine congrArg _ ?_
  funext a; apply Fin.ext
  match a with
  | ⟨0, _⟩ => show win0_5.index t (0 : Fin 2) * 4096 + 1 * k.val = k.val; omega
  | ⟨1, _⟩ => show win0_5.index t (1 : Fin 2) * 2048 + 1 * n.val = n.val; omega

theorem blk6 (c : Dev nD) (t : Fin cfg0.N) (n : Fin 2048) :
    iblk m c 6 t (ix2 (0 : Fin 1) n) = m ((c : Thread nD τ).loc main_arg6) (ix1 n) := by
  obtain ⟨-, -, -, -, -, -, -, -, -, -, -, -, -, -, -, e0, e1, -⟩ := idx_facts t
  show V m c main_v6 (((cfg0.win 6).blk t).view.emb (ix2 (0 : Fin 1) n)) = _
  rw [V_v6]
  have he : ((cfg0.win 6).blk t).view.emb (ix2 (0 : Fin 1) n) = ix2 (0 : Fin 1) n := by
    funext a; apply Fin.ext
    match a with
    | ⟨0, _⟩ => show win0_6.index t (0 : Fin 2) * 1 + 1 * 0 = 0; omega
    | ⟨1, _⟩ => show win0_6.index t (1 : Fin 2) * 2048 + 1 * n.val = n.val; omega
  rw [he]
  exact shapeCast_a_1a_apply _ _ (0 : Fin 1) n

/-- The function G of the argument arrays as launched. -/
abbrev Gm (c : Dev nD) : S8x2048x64.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What a grid point writes back is its block of G of the argument arrays. -/
theorem flushed7_eq (c : Dev nD) (t : Fin cfg0.N) :
    (dats m 0 c).flushed 7 t = ((cfg0.win 7).blk t).view.read (Elt Ideal) (Gm m c) := by
  rw [Cert.KernelIdeal.Value.flushed7]
  unfold out0_7
  rw [View.canon_unit_zero hz3]
  simp only [View.ld_unit_zero (S := S1x128x64) hz3, View.ld_unit_zero (S := S1x2048x64) hz3,
    View.ld_unit_zero (S := S2048x4096) hz2, View.ld_unit_zero (S := S1x4096) hz2,
    View.ld_unit_zero (S := S4096x2048) hz2, View.ld_unit_zero (S := S1x2048) hz2]
  funext j
  obtain ⟨a, r, d, rfl⟩ : ∃ (a : Fin 1) (r : Fin 128) (d : Fin 64), j = ix3 a r d := ⟨j 0, j 1, j 2, eq_ix3 j⟩
  obtain rfl : a = 0 := Subsingleton.elim _ _
  show k0_pay1 (k0_pay2 (iblk m c 2 t))
      (k0_pay3 (iblk m c 0 t) (iblk m c 1 t) (iblk m c 3 t) (iblk m c 4 t) (iblk m c 5 t) (iblk m c 6 t))
      (k0_pay4 (iblk m c 0 t) (iblk m c 1 t) (iblk m c 3 t) (iblk m c 4 t) (iblk m c 5 t) (iblk m c 6 t)) (ix3 (0 : Fin 1) r d)
    = Gm m c (((cfg0.win 7).blk t).view.emb (ix3 (0 : Fin 1) r d))
  refine (Cert.KernelRow.pay_row (iblk m c 0 t) (iblk m c 1 t) (iblk m c 2 t) (iblk m c 3 t) (iblk m c 4 t) (iblk m c 5 t)
    (iblk m c 6 t) r d).trans ?_
  rw [emb7]
  refine Eq.trans ?_ (G_apply _ _ _ _ _ _ _ (bAt t) (rowAt t r) d).symm
  have h0 : (fun e : Fin 64 => iblk m c 0 t (ix3 (0 : Fin 1) r e))
      = fun e => m ((c : Thread nD τ).loc main_arg0) (ix3 (bAt t) (rowAt t r) e) := funext fun e => blk0 m c t r e
  have h1 : (fun (k : Fin 2048) (e : Fin 64) => iblk m c 1 t (ix3 (0 : Fin 1) k e))
      = fun k e => m ((c : Thread nD τ).loc main_arg1) (ix3 (bAt t) k e) := funext fun k => funext fun e => blk1 m c t k e
  have h2 : (fun (k : Fin 2048) (e : Fin 64) => iblk m c 2 t (ix3 (0 : Fin 1) k e))
      = fun k e => m ((c : Thread nD τ).loc main_arg2) (ix3 (bAt t) k e) := funext fun k => funext fun e => blk2 m c t k e
  have h3 : mat (iblk m c 3 t) = mat (m ((c : Thread nD τ).loc main_arg3)) := funext fun k => funext fun n => blk3 m c t k n
  have h4 : row (iblk m c 4 t) (0 : Fin 1) = vec (m ((c : Thread nD τ).loc main_arg4)) := funext fun n => blk4 m c t n
  have h5 : mat (iblk m c 5 t) = mat (m ((c : Thread nD τ).loc main_arg5)) := funext fun k => funext fun n => blk5 m c t k n
  have h6 : row (iblk m c 6 t) (0 : Fin 1) = vec (m ((c : Thread nD τ).loc main_arg6)) := funext fun n => blk6 m c t n
  rw [h0, h1, h2, h3, h4, h5, h6]

/-- An index of the result array is in a point's block iff each coordinate is in the block's range on its axis. -/
theorem mem_blk7 (t : Fin cfg0.N) (i : S8x2048x64.Idx) :
    i ∈ ((cfg0.win 7).blk t).view.set ↔ ∀ a : Fin 3, win0_7.index t a * S1x128x64.size a ≤ (i a).val
      ∧ (i a).val < win0_7.index t a * S1x128x64.size a + S1x128x64.size a := by
  show i ∈ ((View.whole main_v7).slice (win0_7.rect t)).set ↔ _
  rw [View.set_slice_whole, Rect.mem_set_unit]
  exact Iff.rfl

/-- Every index of the result array is in some point's block: row q of batch b belongs to point (b, q / 128). -/
theorem cover7 (i : S8x2048x64.Idx) :
    ∃ t : Fin cfg0.N, (cfg0.win 7).flush t = true ∧ i ∈ ((cfg0.win 7).blk t).view.set := by
  have hi0 : (i 0).val < 8 := (i 0).isLt
  have hi1 : (i 1).val < 2048 := (i 1).isLt
  have hi2 : (i 2).val < 64 := (i 2).isLt
  obtain ⟨t, ht⟩ := idx_onto ⟨(i 0).val, hi0⟩ ⟨(i 1).val / 128, by omega⟩
  have q0 : win0_7.index t (0 : Fin 3) = (i 0).val := congrFun ht 0
  have q1 : win0_7.index t (1 : Fin 3) = (i 1).val / 128 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 128 ≤ (i 1).val ∧ (i 1).val < win0_7.index t (1 : Fin 3) * 128 + 128; omega
  | ⟨2, _⟩ => show win0_7.index t (2 : Fin 3) * 64 ≤ (i 2).val ∧ (i 2).val < win0_7.index t (2 : Fin 3) * 64 + 64; omega

/-- The result array after the run is G of the argument arrays. -/
theorem final7 (c : Dev nD) : (dats m 0 c).arrAt 7 cfg0.N = Gm m c :=
  (dats m 0 c).arrAt_eq_of_cover 7 (Gm m c) (fun t _ => flushed7_eq m c t) cover7

/-- The kernel program's run: every weakly fair execution terminates with the result array at G of the argument
    arrays, the arguments unchanged. -/
theorem run : θ_run defs (onTc (τ := τ) (main (F := Ideal))) ⟨m, fun _ => 0, ρ⟩ fun r => ∀ c : Dev nD,
      r.2.mem ((c : Thread nD τ).loc main_v7) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2⟩) (Cert.KernelIdeal.Value.run_blocks m ρ)

end Cert.KernelBlocks

end
-- ==== Proof.RefAdj.lean ====
/-
  The reference's adjusted scores, one query row at a time, on the extended reals.

  The reference computes, for batch b and query row q,
      scores   s k = (Σ e, Q b q e · K b k e) / √64
      hidden   h j = max ((Σ k, s k · W1 k j) + b1 j) 0
      adjusted a k = (Σ j, h j · W2 j k) + b2 k,
  each as an operation on whole arrays: a contraction, a division by a scalar spread over the array, a contraction,
  a bias spread over the rows, an entrywise maximum with a spread zero, a contraction, a second spread bias.

  Two things are proved here.
  * `scale_eq`: the pattern 0x42800000 denotes 64, whose square root is 8, and dividing an extended real by the
    real 8 is multiplying it by the real 1/8, which is what the pattern 0x3E000000 denotes. So the reference's division
    by √64 is the multiplication by the scale `cK` (`ofBits_64`, `ofBits_eighth`, `sqrt_64` are its three steps).
  * `v12_row`: row (b, q) of the array of adjusted scores is `adjRow cK zK` of query row (b, q), the key rows of
    batch b, and the two layers' weights and biases read as matrices and vectors. It is assembled from one lemma per
    layer, each reading one entry: `v3_at` (entry (b, q, k) of the scaled scores is `scoreRow` at k), `v8_at`
    (entry (b, q, j) of the hidden layer is the rectified `affine` of the score row at j), `v12_at` (entry (b, q, k)
    of the adjusted scores is `adjRow` at k). Each follows by reading the operations at an index, outermost first;
    the only other ingredient is where each operation reads its operands when the result index is given by its three
    coordinates (`lidx_v0` … `idx_v11_v10`): a contraction reads its left operand along the contracted coordinate
    and its right operand across it, a spread bias reads its vector at the last coordinate.
-/
import proofs.«176776_j71605694759560_2_alg».proof.Proof.Gen.ReferenceIdeal.Read
import proofs.«176776_j71605694759560_2_alg».proof.Proof.AttnRows

noncomputable section

namespace Cert.RefAdj

open Idealize.ShloMosaic Idealize.ShloMosaic.ValueIdx Cert.ReferenceIdeal Cert.ReferenceIdeal.Read Cert.DenseRows Cert.AttnRows

/-! ## The scale -/

/-- The pattern 0x42800000 denotes the real 64. -/
theorem ofBits_64 : Ideal.ofBits .f32 0x42800000#32 = ((64 : ℝ) : EReal) := by
  simp [Ideal.ofBits, Ideal.ieee, -EReal.coe_mul]; norm_num

/-- The pattern 0x3E000000 denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Real.sqrt 64 = 8 := by
  rw [show (64 : ℝ) = 8 ^ 2 by norm_num]; exact Real.sqrt_sq (by norm_num)

/-- Dividing by the square root of the pattern of 64 is multiplying by the pattern of 1/8. -/
theorem scale_eq (x : EReal) :
    FloatOps.hostDivf (F := Ideal) (φ := .f32) x
        (FloatOps.hostUnary .sqrt (FloatOps.ofBits (F := Ideal) .f32 0x42800000#32)) = x * cK := by
  rw [Ideal.hostDivf_def, Ideal.hostUnary_sqrt_def, Ideal.ofBits_def, ofBits_64, Ideal.sqrt_coe,
    if_neg (by norm_num), sqrt_64, Ideal.div_coe (by norm_num)]
  show x * _ = x * Ideal.ofBits .f32 0x3E000000#32
  rw [ofBits_eighth]

/-! ## Where each operation reads its operands, by coordinates -/

/-- The first contraction reads the queries at (b, q, e) … -/
theorem lidx_v0 (b : Fin 8) (q k : Fin 2048) (e : Fin 64) : lidx_main_v0 (ix3 b q k) e = ix3 b q e :=
  funext fun a => Fin.ext (by match a with | ⟨0, _⟩ => rfl | ⟨1, _⟩ => rfl | ⟨2, _⟩ => rfl)

/-- … and the keys at (b, k, e). -/
theorem ridx_v0 (b : Fin 8) (q k : Fin 2048) (e : Fin 64) : ridx_main_v0 (ix3 b q k) e = ix3 b k e :=
  funext fun a => Fin.ext (by match a with | ⟨0, _⟩ => rfl | ⟨1, _⟩ => rfl | ⟨2, _⟩ => rfl)

/-- The second contraction reads the scores at (b, q, k) … -/
theorem lidx_v4 (b : Fin 8) (q : Fin 2048) (j : Fin 4096) (k : Fin 2048) : lidx_main_v4 (ix3 b q j) k = ix3 b q k :=
  funext fun a => Fin.ext (by match a with | ⟨0, _⟩ => rfl | ⟨1, _⟩ => rfl | ⟨2, _⟩ => rfl)

/-- … and the first weights at (k, j). -/
theorem ridx_v4 (b : Fin 8) (q : Fin 2048) (j : Fin 4096) (k : Fin 2048) : ridx_main_v4 (ix3 b q j) k = ix2 k j :=
  funext fun a => Fin.ext (by match a with | ⟨0, _⟩ => rfl | ⟨1, _⟩ => rfl)

/-- The first bias, spread twice, is read at j. -/
theorem idx_v6_v5 (b : Fin 8) (q : Fin 2048) (j : Fin 4096) : idx_main_v5 (idx_main_v6 (ix3 b q j)) = ix1 j :=
  funext fun a => Fin.ext (by match a with | ⟨0, _⟩ => rfl)

/-- The third contraction reads the hidden layer at (b, q, j) … -/
theorem lidx_v9 (b : Fin 8) (q k : Fin 2048) (j : Fin 4096) : lidx_main_v9 (ix3 b q k) j = ix3 b q j :=
  funext fun a => Fin.ext (by match a with | ⟨0, _⟩ => rfl | ⟨1, _⟩ => rfl | ⟨2, _⟩ => rfl)

/-- … and the second weights at (j, k). -/
theorem ridx_v9 (b : Fin 8) (q k : Fin 2048) (j : Fin 4096) : ridx_main_v9 (ix3 b q k) j = ix2 j k :=
  funext fun a => Fin.ext (by match a with | ⟨0, _⟩ => rfl | ⟨1, _⟩ => rfl)

/-- The second bias, spread twice, is read at k. -/
theorem idx_v11_v10 (b : Fin 8) (q k : Fin 2048) : idx_main_v10 (idx_main_v11 (ix3 b q k)) = ix1 k :=
  funext fun a => Fin.ext (by match a with | ⟨0, _⟩ => rfl)

/-! ## The three layers, one entry at a time -/

/-- Entry (b, q, k) of the scaled scores. -/
theorem v3_at (x0 x1 : (⟨S8x2048x64, .f32⟩ : BufTy).Contents (Elt Ideal)) (b : Fin 8) (q k : Fin 2048) :
    val_main_v3 (F := Ideal) x0 x1 (ix3 b q k)
      = scoreRow cK (fun e : Fin 64 => x0 (ix3 b q e)) (fun (k : Fin 2048) (e : Fin 64) => x1 (ix3 b k e)) k := by
  rw [val_main_v3_apply, val_main_v2_apply, val_main_v1_apply, val_main_cst_apply, scale_eq, val_main_v0_apply]
  unfold scoreRow
  refine congrArg (· * cK) (Finset.sum_congr rfl fun e _ => ?_)
  rw [lidx_v0, ridx_v0]

/-- Entry (b, q, j) of the rectified hidden layer. -/
theorem v8_at (x0 x1 : (⟨S8x2048x64, .f32⟩ : BufTy).Contents (Elt Ideal)) (x3 : (⟨S2048x4096, .f32⟩ : BufTy).Contents (Elt Ideal))
    (x4 : (⟨S4096, .f32⟩ : BufTy).Contents (Elt Ideal)) (b : Fin 8) (q : Fin 2048) (j : Fin 4096) :
    val_main_v8 (F := Ideal) x0 x1 x3 x4 (ix3 b q j)
      = floorAt zK (affine (scoreRow cK (fun e : Fin 64 => x0 (ix3 b q e)) (fun (k : Fin 2048) (e : Fin 64) => x1 (ix3 b k e)))
          (mat x3) (vec x4)) j := by
  rw [val_main_v8_apply, val_main_call0_v0_apply, val_main_call0_cst_apply, val_main_v7_apply, val_main_v6_apply,
    val_main_v5_apply, val_main_v4_apply, idx_v6_v5, Ideal.maximumf_def, Ideal.addf_def, Ideal.ofBits_def]
  unfold floorAt affine mat vec
  refine congrArg (fun s => max (s + x4 (ix1 j)) zK) (Finset.sum_congr rfl fun k _ => ?_)
  rw [lidx_v4, ridx_v4, v3_at]

/-- Entry (b, q, k) of the adjusted scores. -/
theorem v12_at (x0 x1 : (⟨S8x2048x64, .f32⟩ : BufTy).Contents (Elt Ideal)) (x3 : (⟨S2048x4096, .f32⟩ : BufTy).Contents (Elt Ideal))
    (x4 : (⟨S4096, .f32⟩ : BufTy).Contents (Elt Ideal)) (x5 : (⟨S4096x2048, .f32⟩ : BufTy).Contents (Elt Ideal))
    (x6 : (⟨S2048, .f32⟩ : BufTy).Contents (Elt Ideal)) (b : Fin 8) (q k : Fin 2048) :
    val_main_v12 (F := Ideal) x0 x1 x3 x4 x5 x6 (ix3 b q k)
      = adjRow cK zK (fun e : Fin 64 => x0 (ix3 b q e)) (fun (k : Fin 2048) (e : Fin 64) => x1 (ix3 b k e))
          (mat x3) (vec x4) (mat x5) (vec x6) k := by
  rw [val_main_v12_apply, val_main_v11_apply, val_main_v10_apply, val_main_v9_apply, idx_v11_v10, Ideal.addf_def]
  unfold adjRow
  show _ = (∑ j : Fin 4096, floorAt zK (affine (scoreRow cK (fun e : Fin 64 => x0 (ix3 b q e))
      (fun (k : Fin 2048) (e : Fin 64) => x1 (ix3 b k e))) (mat x3) (vec x4)) j * mat x5 j k) + vec x6 k
  refine congrArg (· + x6 (ix1 k)) (Finset.sum_congr rfl fun j _ => ?_)
  rw [lidx_v9, ridx_v9, v8_at]
  rfl

/-- Row (b, q) of the adjusted scores is the adjusted row of query row (b, q). -/
theorem v12_row (x0 x1 : (⟨S8x2048x64, .f32⟩ : BufTy).Contents (Elt Ideal)) (x3 : (⟨S2048x4096, .f32⟩ : BufTy).Contents (Elt Ideal))
    (x4 : (⟨S4096, .f32⟩ : BufTy).Contents (Elt Ideal)) (x5 : (⟨S4096x2048, .f32⟩ : BufTy).Contents (Elt Ideal))
    (x6 : (⟨S2048, .f32⟩ : BufTy).Contents (Elt Ideal)) (b : Fin 8) (q : Fin 2048) :
    (fun k : Fin 2048 => val_main_v12 (F := Ideal) x0 x1 x3 x4 x5 x6 (ix3 b q k))
      = adjRow cK zK (fun e : Fin 64 => x0 (ix3 b q e)) (fun (k : Fin 2048) (e : Fin 64) => x1 (ix3 b k e))
          (mat x3) (vec x4) (mat x5) (vec x6) :=
  funext fun k => v12_at x0 x1 x3 x4 x5 x6 b q k

end Cert.RefAdj

end
-- ==== Proof.RefSoft.lean ====
/-
  The reference's softmax and value mix, read one query row at a time, on the extended reals.

  Write a k for the adjusted score of key k against query row (b, q) — entry (b, q, k) of the [8, 2048, 2048] array of
  adjusted scores. After that array the reference computes, in this order:
    * M = the maximum of a over k, folded from the floor −∞, and then max (−∞) M once more. The second maximum changes
      nothing, because a fold of max that starts from the floor is never below the floor (max_rowMax); no value of the
      floor is used, only that it is the fold's starting point. So the maximum at (b, q) is rowMax lo a (v13_apply,
      v15_apply), and spread back over the keys every entry of row (b, q) holds it (v17_apply);
    * e k = exp (a k − M) (v19_apply);
    * Z = 0 + Σ k, e k, the zero being the sum's starting value (v20_apply);
    * p k = e k / Z, which is the softmax weight softRow lo a k (v23_apply);
    * o d = Σ k, p k · V k d over the value rows V of batch b, which is mixRow p V d (v24_apply_rows).
  Each step is read at an index built from the three coordinates b, q, k (or d), so that a row of the result is a
  function of the same row of the adjusted scores and of the batch's value rows alone.
-/
import proofs.«176776_j71605694759560_2_alg».proof.Proof.Gen.ReferenceIdeal.Read
import proofs.«176776_j71605694759560_2_alg».proof.Proof.AttnRows
import Idealize.ShloMosaic.PureOps.Reduce
import Idealize.ShloMosaic.PureOps.Ideal.Laws

noncomputable section

namespace Cert.RefSoft

open Idealize.ShloMosaic Idealize.ShloMosaic.ValueIdx Cert.ReferenceIdeal Cert.ReferenceIdeal.Gen Cert.ReferenceIdeal.Read
  Cert.DenseRows Cert.AttnRows

/-- Taking the maximum with the floor once more changes nothing: the fold already starts from the floor. -/
theorem max_rowMax {N : ℕ} (lo : EReal) (a : Fin N → EReal) : max lo (rowMax lo a) = rowMax lo a :=
  max_eq_right ((Finset.le_fold_max lo).2 (Or.inl le_rfl))

/-- The maximum over the last axis of an [8, 2048, 2048] array, folded from the one entry of a rank-zero array. -/
theorem reduceMax_apply (y : (⟨S8x2048x2048, .f32⟩ : BufTy).Contents (Elt Ideal))
    (init : (⟨S_, .f32⟩ : BufTy).Contents (Elt Ideal)) (b : Fin 8) (q : Fin 2048) :
    Host.reduce (FloatOps.maximumf (F := Ideal) (φ := .f32)) y init reducesTo_S8x2048x2048_S8x2048_d2 h_S_ (ix2 b q)
      = rowMax (init (Shape.Idx.first h_S_)) (fun k : Fin 2048 => y (ix3 b q k)) := by
  rw [Host.reduce_eq_fold_single _ y init reducesTo_S8x2048x2048_S8x2048_d2 (by decide) h_S_ (ix2 b q)]
  refine congrArg (fun f : Fin 2048 → EReal => (Finset.univ : Finset (Fin 2048)).fold max (init (Shape.Idx.first h_S_)) f) ?_
  funext k
  exact congrArg y (funext fun a => Fin.ext (by match a with | ⟨0, _⟩ => rfl | ⟨1, _⟩ => rfl | ⟨2, _⟩ => rfl))

section Stages

variable (x0 x1 x2 : (⟨S8x2048x64, .f32⟩ : BufTy).Contents (Elt Ideal))
  (x3 : (⟨S2048x4096, .f32⟩ : BufTy).Contents (Elt Ideal)) (x4 : (⟨S4096, .f32⟩ : BufTy).Contents (Elt Ideal))
  (x5 : (⟨S4096x2048, .f32⟩ : BufTy).Contents (Elt Ideal)) (x6 : (⟨S2048, .f32⟩ : BufTy).Contents (Elt Ideal))

/-- The reduction's result at (b, q) is the largest adjusted score of that query row, folded from the floor. -/
theorem v13_apply (b : Fin 8) (q : Fin 2048) :
    val_main_v13 (F := Ideal) x0 x1 x3 x4 x5 x6 (ix2 b q) = rowMax loK (fun k : Fin 2048 => val_main_v12 (F := Ideal) x0 x1 x3 x4 x5 x6 (ix3 b q k)) := by
  unfold val_main_v13
  generalize val_main_v12 (F := Ideal) x0 x1 x3 x4 x5 x6 = y
  exact reduceMax_apply y _ b q

/-- The further maximum with the floor leaves it as it was. -/
theorem v15_apply (b : Fin 8) (q : Fin 2048) :
    val_main_v15 (F := Ideal) x0 x1 x3 x4 x5 x6 (ix2 b q) = rowMax loK (fun k : Fin 2048 => val_main_v12 (F := Ideal) x0 x1 x3 x4 x5 x6 (ix3 b q k)) := by
  rw [val_main_v15_apply, val_main_v14_apply, val_main_cst_1_apply, v13_apply]
  exact max_rowMax loK _

/-- Broadcast back over the keys, every entry of row (b, q) holds that row's maximum. -/
theorem v17_apply (b : Fin 8) (q k : Fin 2048) :
    val_main_v17 (F := Ideal) x0 x1 x3 x4 x5 x6 (ix3 b q k) = rowMax loK (fun k : Fin 2048 => val_main_v12 (F := Ideal) x0 x1 x3 x4 x5 x6 (ix3 b q k)) := by
  have e : idx_main_v16 (idx_main_v17 (ix3 b q k)) = ix2 b q :=
    funext fun a => Fin.ext (by match a with | ⟨0, _⟩ => rfl | ⟨1, _⟩ => rfl)
  rw [val_main_v17_apply, val_main_v16_apply, e, v15_apply]

/-- The exponential of an adjusted score after its row's maximum is taken off. -/
theorem v19_apply (b : Fin 8) (q k : Fin 2048) :
    val_main_v19 (F := Ideal) x0 x1 x3 x4 x5 x6 (ix3 b q k)
      = Ideal.exp (val_main_v12 (F := Ideal) x0 x1 x3 x4 x5 x6 (ix3 b q k) - rowMax loK (fun k : Fin 2048 => val_main_v12 (F := Ideal) x0 x1 x3 x4 x5 x6 (ix3 b q k))) := by
  rw [val_main_v19_apply, val_main_v18_apply, v17_apply]
  rfl

/-- The sum of those exponentials along row (b, q). -/
theorem v20_apply (b : Fin 8) (q : Fin 2048) :
    val_main_v20 (F := Ideal) x0 x1 x3 x4 x5 x6 (ix2 b q)
      = ∑ j : Fin 2048, Ideal.exp (val_main_v12 (F := Ideal) x0 x1 x3 x4 x5 x6 (ix3 b q j) - rowMax loK (fun k : Fin 2048 => val_main_v12 (F := Ideal) x0 x1 x3 x4 x5 x6 (ix3 b q k))) := by
  rw [val_main_v20_apply, val_main_cst_2_apply,
    show FloatOps.ofBits (F := Ideal) .f32 0x00000000#32 = (0 : EReal) from Ideal.ofBits_zero_f32, zero_add]
  refine Finset.sum_congr rfl fun j _ => ?_
  have e : idx_main_v20 (ix2 b q) j = ix3 b q j :=
    funext fun a => Fin.ext (by match a with | ⟨0, _⟩ => rfl | ⟨1, _⟩ => rfl | ⟨2, _⟩ => rfl)
  rw [e, v19_apply]

/-- The softmax weight of key k for query row (b, q). -/
theorem v23_apply (b : Fin 8) (q k : Fin 2048) :
    val_main_v23 (F := Ideal) x0 x1 x3 x4 x5 x6 (ix3 b q k) = softRow loK (fun k : Fin 2048 => val_main_v12 (F := Ideal) x0 x1 x3 x4 x5 x6 (ix3 b q k)) k := by
  have e : idx_main_v21 (idx_main_v22 (ix3 b q k)) = ix2 b q :=
    funext fun a => Fin.ext (by match a with | ⟨0, _⟩ => rfl | ⟨1, _⟩ => rfl)
  rw [val_main_v23_apply, v19_apply, val_main_v22_apply, val_main_v21_apply, e, v20_apply]
  rfl

/-- The reference's result at (b, q, d): the value rows of batch b mixed by the softmax weights of query row (b, q). -/
theorem v24_apply_rows (b : Fin 8) (q : Fin 2048) (d : Fin 64) :
    val_main_v24 (F := Ideal) x0 x1 x2 x3 x4 x5 x6 (ix3 b q d)
      = mixRow (softRow loK (fun k : Fin 2048 => val_main_v12 (F := Ideal) x0 x1 x3 x4 x5 x6 (ix3 b q k))) (fun (k : Fin 2048) (e : Fin 64) => x2 (ix3 b k e)) d := by
  rw [val_main_v24_apply]
  refine Finset.sum_congr rfl fun k _ => ?_
  have el : lidx_main_v24 (ix3 b q d) k = ix3 b q k :=
    funext fun a => Fin.ext (by match a with | ⟨0, _⟩ => rfl | ⟨1, _⟩ => rfl | ⟨2, _⟩ => rfl)
  have er : ridx_main_v24 (ix3 b q d) k = ix3 b k d :=
    funext fun a => Fin.ext (by match a with | ⟨0, _⟩ => rfl | ⟨1, _⟩ => rfl | ⟨2, _⟩ => rfl)
  rw [el, er, v23_apply]

end Stages

end Cert.RefSoft

end
-- ==== Proof.RefRow.lean ====
/-
  One output row of the reference, on the extended reals, and the reference's whole result array.

  Entry (b, q, d) of the reference's result is output coordinate d of the attention row of query row (b, q) against the
  keys and values of batch b: its softmax-and-mix steps read the row (b, q) of the adjusted scores, and that row is
  the adjusted row of query row (b, q). So the whole result is the function G of the seven argument arrays.
-/
import proofs.«176776_j71605694759560_2_alg».proof.Proof.RefAdj
import proofs.«176776_j71605694759560_2_alg».proof.Proof.RefSoft

noncomputable section

namespace Cert.RefRow

open Idealize.ShloMosaic Idealize.ShloMosaic.ValueIdx Cert.ReferenceIdeal Cert.ReferenceIdeal.Read Cert.DenseRows Cert.AttnRows
open Cert.RefAdj Cert.RefSoft

/-- Entry (b, q, d) of the reference's result is the attention row of query row (b, q), at d. -/
theorem ref_row (x0 x1 x2 : (⟨S8x2048x64, .f32⟩ : BufTy).Contents (Elt Ideal)) (x3 : (⟨S2048x4096, .f32⟩ : BufTy).Contents (Elt Ideal))
    (x4 : (⟨S4096, .f32⟩ : BufTy).Contents (Elt Ideal)) (x5 : (⟨S4096x2048, .f32⟩ : BufTy).Contents (Elt Ideal))
    (x6 : (⟨S2048, .f32⟩ : BufTy).Contents (Elt Ideal)) (b : Fin 8) (q : Fin 2048) (d : Fin 64) :
    val_main_v24 (F := Ideal) x0 x1 x2 x3 x4 x5 x6 (ix3 b q d)
      = attnRow cK zK loK (fun e : Fin 64 => x0 (ix3 b q e)) (fun (k : Fin 2048) (e : Fin 64) => x1 (ix3 b k e))
          (fun (k : Fin 2048) (e : Fin 64) => x2 (ix3 b k e)) (mat x3) (vec x4) (mat x5) (vec x6) d := by
  rw [v24_apply_rows, v12_row]
  rfl

/-- The reference's result array is G of the argument arrays. -/
theorem ref_eq_G (x0 x1 x2 : (⟨S8x2048x64, .f32⟩ : BufTy).Contents (Elt Ideal)) (x3 : (⟨S2048x4096, .f32⟩ : BufTy).Contents (Elt Ideal))
    (x4 : (⟨S4096, .f32⟩ : BufTy).Contents (Elt Ideal)) (x5 : (⟨S4096x2048, .f32⟩ : BufTy).Contents (Elt Ideal))
    (x6 : (⟨S2048, .f32⟩ : BufTy).Contents (Elt Ideal)) :
    val_main_v24 (F := Ideal) x0 x1 x2 x3 x4 x5 x6 = G x0 x1 x2 x3 x4 x5 x6 := by
  funext i
  obtain ⟨b, q, d, rfl⟩ : ∃ (b : Fin 8) (q : Fin 2048) (d : Fin 64), i = ix3 b q d := ⟨i 0, i 1, i 2, eq_ix3 i⟩
  rw [ref_row]
  rfl

end Cert.RefRow

end
-- ==== Proof.lean ====
/-
  The certificate of the attention kernel against its reference.

  Both programs compute, for every batch b, query row q and output coordinate d,
      o b q d = Σ k, p k · V b k d,   p = softmax of a,   a k = (Σ j, max ((Σ k', s k' · W1 k' j) + b1 j) 0 · W2 j k) + b2 k,
      s k = scaled (Σ e, Q b q e · K b k e).
  The kernel works on blocks of 128 query rows per batch and scales the scores by multiplying with 1/8; the reference
  works on whole arrays and divides by the square root of 64. On the extended reals √64 = 8 and dividing by 8 is
  multiplying by 1/8, every change of float format is the identity, the reference's extra maximum of the row maximum
  with its own starting value changes nothing, and each step reads one row of the step before, so a block of rows and
  the whole array give the same rows. No step needs the inputs to be finite.

  The modules: AttnRows (the attention row and the result array G as plain functions), KernelAdj / KernelSoft /
  KernelRow (the kernel body's stored block, entry by entry, is the attention row), KernelBlocks (the blocks the grid
  points write tile the result array, which ends holding G), RefAdj / RefSoft / RefRow (the reference's result is G).
  The three frames are the generated ones (the reference's is its generated run with the result dropped); the
  idealization rewrote nothing, so there is nothing to preserve.
-/
import proofs.«176776_j71605694759560_2_alg».proof.Defs
import proofs.«176776_j71605694759560_2_alg».proof.Proof.Gen.Kernel
import proofs.«176776_j71605694759560_2_alg».proof.Proof.Gen.Kernel.Skeleton
import proofs.«176776_j71605694759560_2_alg».proof.Proof.Gen.Kernel.Launch
import proofs.«176776_j71605694759560_2_alg».proof.Proof.Gen.Kernel.Points
import proofs.«176776_j71605694759560_2_alg».proof.Proof.Gen.Kernel.Frame
import proofs.«176776_j71605694759560_2_alg».proof.Proof.Gen.KernelIdeal
import proofs.«176776_j71605694759560_2_alg».proof.Proof.Gen.KernelIdeal.Skeleton
import proofs.«176776_j71605694759560_2_alg».proof.Proof.Gen.KernelIdeal.Launch
import proofs.«176776_j71605694759560_2_alg».proof.Proof.Gen.KernelIdeal.Points
import proofs.«176776_j71605694759560_2_alg».proof.Proof.Gen.KernelIdeal.Frame
import proofs.«176776_j71605694759560_2_alg».proof.Proof.Gen.ReferenceIdeal
import proofs.«176776_j71605694759560_2_alg».proof.Proof.Gen.KernelIdeal.Value
import proofs.«176776_j71605694759560_2_alg».proof.Proof.Gen.ReferenceIdeal.Run
import proofs.«176776_j71605694759560_2_alg».proof.Proof.Gen.ReferenceIdeal.Read
import proofs.«176776_j71605694759560_2_alg».proof.Proof.Gen.Pre_finite_inputs
import proofs.«176776_j71605694759560_2_alg».proof.Proof.KernelBlocks
import proofs.«176776_j71605694759560_2_alg».proof.Proof.RefRow
import Idealize.ShloMosaic.Adequacy
import Idealize.ShloMosaic.Init

noncomputable section

namespace Cert.Proof

open Idealize.ShloMosaic Idealize.SL.Sem Cert.Kernel

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end with the result array G of the argument arrays. -/
theorem algebraic : Cert.algebraic_KernelIdeal_ReferenceIdeal := by
  intro m ρ m' ρ' _ hagree
  refine ⟨fun c => Cert.KernelBlocks.Gm m c, Cert.KernelBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v24_eq, Cert.RefRow.ref_eq_G, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
